-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024 : Shape := ⟨1, ![1024]⟩
abbrev S4x1024x1 : Shape := ⟨3, ![4, 1024, 1]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x1024x1 : S_.BroadcastsInDim S4x1024x1 (![] : Fin 0 → Fin S4x1024x1.rank)
  reducesTo_S4x1024x1_S_d0_1_2 : S4x1024x1.ReducesTo [0, 1, 2] S_

variable [Facts]

def fn_part1 {F : FTy → Type} [FloatOps F] (main_arg4 : FVec F S4x1024x1 .f32) (main_v13 : IVec S_ 1) (main_v16 : IVec S4x1024x1 1) : IVec S_ 1 :=
  let main_c_5 : IVec S_ 1 := constantI S_ 1 1#1
  let main_v17 : IVec S_ 1 := (fun x v => Host.reduce IntOp.andi x v reducesTo_S4x1024x1_S_d0_1_2 h_S_) main_v16 main_c_5
  let main_v18 : IVec S_ 1 := andi main_v13 main_v17
  let main_v19 : FVec F S4x1024x1 .f32 := Host.absf main_arg4
  let main_cst_6 : FVec F S_ .f32 := constant S_ .f32 0x7F800000#32
  let main_v20 : FVec F S4x1024x1 .f32 := broadcastInDim S4x1024x1 ![] bcast_S_S4x1024x1 main_cst_6
  let main_v21 : IVec S4x1024x1 1 := cmpf .olt main_v19 main_v20
  let main_c_7 : IVec S_ 1 := constantI S_ 1 1#1
  let main_v22 : IVec S_ 1 := (fun x v => Host.reduce IntOp.andi x v reducesTo_S4x1024x1_S_d0_1_2 h_S_) main_v21 main_c_7
  let main_v23 : IVec S_ 1 := andi main_v18 main_v22
  main_v23

def fn {F : FTy → Type} [FloatOps F] (main_arg0 : FVec F S1024x1024 .f32) (main_arg1 : FVec F S1024x1024 .f32) (main_arg2 : FVec F S1024 .f32) (main_arg3 : FVec F S4x1024x1 .f32) (main_arg4 : FVec F S4x1024x1 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4x1024x1 .f32 := Host.absf main_arg3
  let main_cst_4 : FVec F S_ .f32 := constant S_ .f32 0x7F800000#32
  let main_v15 : FVec F S4x1024x1 .f32 := broadcastInDim S4x1024x1 ![] bcast_S_S4x1024x1 main_cst_4
  let main_v16 : IVec S4x1024x1 1 := cmpf .olt main_v14 main_v15
  fn_part1 (F := F) main_arg4 main_v13 main_v16
-- ==== Kernel.lean ====
abbrev S1024x1024 : Shape := ⟨2, ![1024, 1024]⟩
abbrev S1024 : Shape := ⟨1, ![1024]⟩
abbrev S4x1024x1 : Shape := ⟨3, ![4, 1024, 1]⟩
abbrev S4x1024 : Shape := ⟨2, ![4, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S4x1024x1, .f32⟩
  | .hbm, ⟨4, _⟩ => ⟨S4x1024x1, .f32⟩
  | .hbm, ⟨5, _⟩ => ⟨S4x1024, .f32⟩
  | .hbm, ⟨6, _⟩ => ⟨S4x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024, .f32⟩
  | .local _ .vmem, ⟨4, _⟩ => ⟨S4x1024, .f32⟩
  | .local _ .vmem, ⟨5, _⟩ => ⟨S4x1024, .f32⟩
  | .local _ .vmem, ⟨6, _⟩ => ⟨S512x1024, .f32⟩
  | .local _ .vmem, ⟨7, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x1024x1_S4x1024 : S4x1024x1.ShapeCasts S4x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  reduces_S512x1024_S512 : S512x1024.Reduces [1] S512
  shapeCasts_S512_S512x1 : S512.ShapeCasts S512x1
  broadcasts_S512x1_S512x1024 : S512x1.Broadcasts S512x1024
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .f32 = 32 ∨ (Rect.block (s := S1024x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x1024.size a
  hwx0_4 : ∀ i : grid0.Coords, EltTy.bits .f32 = 32 ∨ (Rect.block (s := S4x1024) S4x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S1024x1024.size a
  hwx0_5 : ∀ i : grid0.Coords, EltTy.bits .f32 = 32 ∨ (Rect.block (s := S1024x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024 : Shape := ⟨1, ![1024]⟩
abbrev S4x1024x1 : Shape := ⟨3, ![4, 1024, 1]⟩
abbrev S1x1024 : Shape := ⟨2, ![1, 1024]⟩
abbrev S1x1024x1 : Shape := ⟨3, ![1, 1024, 1]⟩
abbrev S1024x1 : Shape := ⟨2, ![1024, 1]⟩

abbrev nBuf : Space → Nat
  | .hbm => 57
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S4x1024x1, .f32⟩
  | .hbm, ⟨4, _⟩ => ⟨S4x1024x1, .f32⟩
  | .hbm, ⟨5, _⟩ => ⟨S1024x1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1x1024x1, .f32⟩
  | .hbm, ⟨10, _⟩ => ⟨S1024x1, .f32⟩
  | .hbm, ⟨11, _⟩ => ⟨S1024x1, .f32⟩
  | .hbm, ⟨12, _⟩ => ⟨S1024x1024, .f32⟩
  | .hbm, ⟨13, _⟩ => ⟨S1024x1024, .f32⟩
  | .hbm, ⟨14, _⟩ => ⟨S1x1024x1, .f32⟩
  | .hbm, ⟨15, _⟩ => ⟨S1024x1, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1x1024x1, .f32⟩
  | .hbm, ⟨22, _⟩ => ⟨S1024x1, .f32⟩
  | .hbm, ⟨23, _⟩ => ⟨S1024x1, .f32⟩
  | .hbm, ⟨24, _⟩ => ⟨S1024x1024, .f32⟩
  | .hbm, ⟨25, _⟩ => ⟨S1024x1024, .f32⟩
  | .hbm, ⟨26, _⟩ => ⟨S1x1024x1, .f32⟩
  | .hbm, ⟨27, _⟩ => ⟨S1024x1, .f32⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1x1024x1, .f32⟩
  | .hbm, ⟨34, _⟩ => ⟨S1024x1, .f32⟩
  | .hbm, ⟨35, _⟩ => ⟨S1024x1, .f32⟩
  | .hbm, ⟨36, _⟩ => ⟨S1024x1024, .f32⟩
  | .hbm, ⟨37, _⟩ => ⟨S1024x1024, .f32⟩
  | .hbm, ⟨38, _⟩ => ⟨S1x1024x1, .f32⟩
  | .hbm, ⟨39, _⟩ => ⟨S1024x1, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1x1024x1, .f32⟩
  | .hbm, ⟨46, _⟩ => ⟨S1024x1, .f32⟩
  | .hbm, ⟨47, _⟩ => ⟨S1024x1, .f32⟩
  | .hbm, ⟨48, _⟩ => ⟨S1024x1024, .f32⟩
  | .hbm, ⟨49, _⟩ => ⟨S1024x1024, .f32⟩
  | .hbm, ⟨50, _⟩ => ⟨S1x1024x1, .f32⟩
  | .hbm, ⟨51, _⟩ => ⟨S1024x1, .f32⟩
  | .hbm, ⟨52, _⟩ => ⟨S1024, .f32⟩
  | .hbm, ⟨53, _⟩ => ⟨S1x1024, .f32⟩
  | .hbm, ⟨54, _⟩ => ⟨S1024x1024, .f32⟩
  | .hbm, ⟨55, _⟩ => ⟨S1024x1024, .f32⟩
  | .hbm, ⟨56, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  slices_S4x1024x1_S1x1024x1_0_0_0 : S4x1024x1.Slices ![0, 0, 0] S1x1024x1
  shapeCasts_S1x1024x1_S1024x1 : S1x1024x1.ShapeCasts S1024x1
  bcast_S1024x1_S1024x1024_0_1 : S1024x1.BroadcastsInDim S1024x1024 (![0, 1] : Fin 2 → Fin S1024x1024.rank)
  shapeCasts_S1024x1_S1024 : S1024x1.ShapeCasts S1024
  slices_S4x1024x1_S1x1024x1_1_0_0 : S4x1024x1.Slices ![1, 0, 0] S1x1024x1
  slices_S4x1024x1_S1x1024x1_2_0_0 : S4x1024x1.Slices ![2, 0, 0] S1x1024x1
  slices_S4x1024x1_S1x1024x1_3_0_0 : S4x1024x1.Slices ![3, 0, 0] S1x1024x1
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

class Facts : Prop extends Facts₀ where

variable [Facts]
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.CrossSpec.lean ====
/-
  The cross network on one row, as a function of the arrays index by index.

  An encoder row is `h(c) = Σ_k x(p,k) · W(k,c) + b(c)`. One cross layer sends a row `xl` to
  `c ↦ (h(c) · Σ_j xl(j) · w(j) + β(c)) + xl(c)`: the inner product of the current row with the layer's weight
  vector scales the encoder row, the layer's bias is added, and the current row is added back. Four layers are applied
  to `xl = h`. Every sum is a finite sum of extended reals in one fixed association, so the two programs' values are
  compared as terms; no law of the extended reals beyond `0 + a = a` is used anywhere.
-/
import Idealize.ShloMosaic.PureOps.Ideal
import Idealize.ShloMosaic.Lib.ValueIdx

noncomputable section

open scoped BigOperators

namespace Idealize.ShloMosaic.CrossNet

open Idealize.ShloMosaic Idealize.ShloMosaic.ValueIdx

/-- Row `p` of a two-axis array, as a function of the column. -/
def rowOf {R N : ℕ} (A : (⟨2, ![R, N]⟩ : Shape).Idx → EReal) (p : Fin R) : Fin N → EReal := fun c => A (ix2 p c)

/-- One cross layer on one row: `(h · ⟨xl, w⟩ + β) + xl`. -/
def layer {N : ℕ} (h xl w β : Fin N → EReal) : Fin N → EReal :=
  fun c => (h c * (∑ j : Fin N, xl j * w j) + β c) + xl c

/-- Four cross layers from `xl = h`, layer `l` with weights `w l` and bias `β l`. -/
def net {N : ℕ} (h : Fin N → EReal) (w β : Fin 4 → Fin N → EReal) : Fin N → EReal :=
  layer h (layer h (layer h (layer h h (w 0) (β 0)) (w 1) (β 1)) (w 2) (β 2)) (w 3) (β 3)

/-- Row `p` of the encoder: `c ↦ Σ_k x(p,k) · W(k,c) + b(c)`. -/
def encRow {R K N : ℕ} (X : (⟨2, ![R, K]⟩ : Shape).Idx → EReal) (W : (⟨2, ![K, N]⟩ : Shape).Idx → EReal)
    (b : (⟨1, ![N]⟩ : Shape).Idx → EReal) (p : Fin R) : Fin N → EReal :=
  fun c => (∑ k : Fin K, X (ix2 p k) * W (ix2 k c)) + b (ix1 c)

/-- Layer `l`'s vector out of a `[4, N, 1]` stack of column vectors. -/
def stackRow {N : ℕ} (S : (⟨3, ![4, N, 1]⟩ : Shape).Idx → EReal) (l : Fin 4) : Fin N → EReal :=
  fun j => S (ix3 l j (0 : Fin 1))

/-- The whole result: entry `(p, c)` is the network applied to encoder row `p`, at column `c`. -/
def result {R K N : ℕ} (X : (⟨2, ![R, K]⟩ : Shape).Idx → EReal) (W : (⟨2, ![K, N]⟩ : Shape).Idx → EReal)
    (b : (⟨1, ![N]⟩ : Shape).Idx → EReal) (ws bs : (⟨3, ![4, N, 1]⟩ : Shape).Idx → EReal) :
    (⟨2, ![R, N]⟩ : Shape).Idx → EReal :=
  fun i => net (encRow X W b (i 0)) (stackRow ws) (stackRow bs) (i 1)

theorem result_apply {R K N : ℕ} (X : (⟨2, ![R, K]⟩ : Shape).Idx → EReal) (W : (⟨2, ![K, N]⟩ : Shape).Idx → EReal)
    (b : (⟨1, ![N]⟩ : Shape).Idx → EReal) (ws bs : (⟨3, ![4, N, 1]⟩ : Shape).Idx → EReal) (p : Fin R) (c : Fin N) :
    result X W b ws bs (ix2 p c) = net (encRow X W b p) (stackRow ws) (stackRow bs) c := rfl

end Idealize.ShloMosaic.CrossNet

end
-- ==== Proof.LibCrossLayer.lean ====
/-
  One cross layer on a block of rows, read one row at a time.

  On a block `H, XL : [R, N]` with the layer's weight and bias each a one-row array `[1, N]`, the layer is
  `(H · bcast(Σ_j (XL · bcast w)(·, j)) + bcast β) + XL`: the row sums are taken along the last axis, kept as an
  `[R, 1]` column and spread back over the columns. Its row `p` is the one-row layer of the specification applied to
  row `p` of `H` and of `XL`: no row reads another.
-/
import Idealize.ShloMosaic.PureOps.Ideal.Laws
import Idealize.ShloMosaic.Lib.Pipeline.Value
import Idealize.ShloMosaic.Lib.ValueLayout
import proofs.«165643_j17514876633094_2_alg».proof.Proof.LibColumn
import proofs.«165643_j17514876633094_2_alg».proof.Proof.CrossSpec

noncomputable section

open scoped BigOperators

namespace Idealize.ShloMosaic.CrossNet

open Idealize.ShloMosaic Idealize.ShloMosaic.ValueIdx Idealize.ShloMosaic.ColumnLayout

/-- A one-row array `[1, N]` flattened to `[N]`, put back as `[1, N]` and spread over `R` rows reads, at `(p, c)`,
    the row's entry `c`. -/
theorem spreadRow_apply {R N : ℕ} (v : (⟨2, ![1, N]⟩ : Shape).Idx → EReal)
    (h1 : (⟨2, ![1, N]⟩ : Shape).ShapeCasts ⟨1, ![N]⟩) (h2 : (⟨1, ![N]⟩ : Shape).ShapeCasts ⟨2, ![1, N]⟩)
    (h3 : (⟨2, ![1, N]⟩ : Shape).Broadcasts ⟨2, ![R, N]⟩) (p : Fin R) (c : Fin N) :
    broadcastTo ⟨2, ![R, N]⟩ (shapeCast ⟨2, ![1, N]⟩ (shapeCast ⟨1, ![N]⟩ v h1) h2) h3 (ix2 p c) = v (ix2 (0 : Fin 1) c) := by
  rw [broadcastTo_1b_ab_apply, shapeCast_a_1a_apply, shapeCast_1a_a_apply]

/-- The sum along the last axis of an `[R, N]` array, kept as a column and spread back over the columns, reads at
    `(p, c)` the plain sum of row `p`. -/
theorem spreadRowSum_apply {R N : ℕ} (A : FVec Ideal ⟨2, ![R, N]⟩ .f32)
    (h4 : (⟨2, ![R, N]⟩ : Shape).Reduces [1] ⟨1, ![R]⟩) (h5 : (⟨1, ![R]⟩ : Shape).ShapeCasts ⟨2, ![R, 1]⟩)
    (h6 : (⟨2, ![R, 1]⟩ : Shape).Broadcasts ⟨2, ![R, N]⟩) (hφ : FKind.Formats .f32)
    (hacc : (0x00000000#32 : BitVec 32) = FKind.add.neutral .f32 hφ) (p : Fin R) (c : Fin N) :
    broadcastTo ⟨2, ![R, N]⟩ (shapeCast ⟨2, ![R, 1]⟩ (multiReduction .add [1] ⟨1, ![R]⟩ A 0x00000000#32 h4 hφ hacc) h5) h6 (ix2 p c)
      = ∑ j : Fin N, A (ix2 p j) := by
  rw [broadcastTo_a1_ab_apply, shapeCast_a_a1_apply, Ideal.multiReduction_add_single]
  refine Finset.sum_congr rfl fun j _ => congrArg A (funext fun a => Fin.ext ?_)
  match a with
  | ⟨0, _⟩ => rfl
  | ⟨1, _⟩ => rfl

/-- Row `p` of the layer on a block is the one-row layer on row `p` of the block's operands. -/
theorem layer_block_row {R N : ℕ} (H XL : FVec Ideal ⟨2, ![R, N]⟩ .f32) (w β : (⟨2, ![1, N]⟩ : Shape).Idx → EReal)
    (h1 : (⟨2, ![1, N]⟩ : Shape).ShapeCasts ⟨1, ![N]⟩) (h2 : (⟨1, ![N]⟩ : Shape).ShapeCasts ⟨2, ![1, N]⟩)
    (h3 : (⟨2, ![1, N]⟩ : Shape).Broadcasts ⟨2, ![R, N]⟩)
    (h4 : (⟨2, ![R, N]⟩ : Shape).Reduces [1] ⟨1, ![R]⟩) (h5 : (⟨1, ![R]⟩ : Shape).ShapeCasts ⟨2, ![R, 1]⟩)
    (h6 : (⟨2, ![R, 1]⟩ : Shape).Broadcasts ⟨2, ![R, N]⟩) (hφ : FKind.Formats .f32)
    (hacc : (0x00000000#32 : BitVec 32) = FKind.add.neutral .f32 hφ) (p : Fin R) :
    rowOf (addf (addf (mulf H
        (broadcastTo ⟨2, ![R, N]⟩ (shapeCast ⟨2, ![R, 1]⟩ (multiReduction .add [1] ⟨1, ![R]⟩
          (mulf XL (broadcastTo ⟨2, ![R, N]⟩ (shapeCast ⟨2, ![1, N]⟩ (shapeCast ⟨1, ![N]⟩ w h1) h2) h3))
          0x00000000#32 h4 hφ hacc) h5) h6))
        (broadcastTo ⟨2, ![R, N]⟩ (shapeCast ⟨2, ![1, N]⟩ (shapeCast ⟨1, ![N]⟩ β h1) h2) h3)) XL) p
      = layer (rowOf H p) (rowOf XL p) (rowOf w 0) (rowOf β 0) := by
  funext c
  unfold rowOf layer
  rw [addf_apply, addf_apply, mulf_apply, spreadRowSum_apply, spreadRow_apply]
  refine congrArg (fun s => H (ix2 p c) * s + β (ix2 (0 : Fin 1) c) + XL (ix2 p c)) (Finset.sum_congr rfl fun j _ => ?_)
  rw [mulf_apply, spreadRow_apply]

end Idealize.ShloMosaic.CrossNet

end
-- ==== Proof.KernelBlock.lean ====
/-
  What the kernel's body leaves in its output block, read at a local index.

  The body loads a block of 512 rows of `x`, the whole `W` and `b`, and one row at a time of the two `[4, 1024]`
  arrays of layer weights and biases. Its stored value is four nested cross layers over the encoder block
  `x_blk · W + b`; at local row `p` and column `c` that is the specification's network applied to the encoder row
  built from row `p` of the block, with layer `l`'s vectors rows `l` of the two `[4, 1024]` arrays.
-/
import proofs.«165643_j17514876633094_2_alg».proof.Proof.Gen.KernelIdeal.Frame
import proofs.«165643_j17514876633094_2_alg».proof.Proof.LibCrossLayer
import Idealize.ShloMosaic.Lib.ValueIdx
import Idealize.ShloMosaic.Lib.ValueLayout
import Idealize.ShloMosaic.PureOps.Ideal.Laws

noncomputable section

open scoped BigOperators

namespace Cert.KernelIdeal.Cross

open Cert.KernelIdeal Cert.KernelIdeal.Gen Idealize.ShloMosaic Idealize.ShloMosaic.TcCoe
open Idealize.ShloMosaic.ValueIdx Idealize.ShloMosaic.CrossNet

/-- One cross layer on a block of 512 rows, as the body spells it. -/
def klayer (H XL : FVec Ideal S512x1024 .f32) (w β : Vec Ideal S1x1024 .f32) : FVec Ideal S512x1024 .f32 :=
  addf (addf (mulf H
      (broadcastTo S512x1024 (shapeCast S512x1 (multiReduction .add [1] S512
        (mulf XL (broadcastTo S512x1024 (shapeCast S1x1024 (shapeCast S1024 w shapeCasts_S1x1024_S1024) shapeCasts_S1024_S1x1024) broadcasts_S1x1024_S512x1024))
        0x00000000#32 reduces_S512x1024_S512 (.inl rfl) rfl) shapeCasts_S512_S512x1) broadcasts_S512x1_S512x1024))
      (broadcastTo S512x1024 (shapeCast S1x1024 (shapeCast S1024 β shapeCasts_S1x1024_S1024) shapeCasts_S1024_S1x1024) broadcasts_S1x1024_S512x1024)) XL

/-- Row `p` of a block layer is the one-row layer on row `p` of its operands. -/
theorem klayer_row (H XL : FVec Ideal S512x1024 .f32) (w β : Vec Ideal S1x1024 .f32) (p : Fin 512) :
    rowOf (klayer H XL w β) p = layer (rowOf H p) (rowOf XL p) (rowOf w 0) (rowOf β 0) :=
  layer_block_row H XL w β _ _ _ _ _ _ _ _ p

/-- The first two layers, over the encoder block. -/
theorem pay3_eq (v0 : Vec Ideal S512x1024 .f32) (v1 : Vec Ideal S1024x1024 .f32) (v3 : Vec Ideal S1024 .f32)
    (v7 v9 v22 v24 : Vec Ideal S1x1024 .f32) :
    k0_pay3 (F := Ideal) v0 v1 v3 v7 v9 v22 v24
      = klayer (k0_pay2 v0 v1 v3) (klayer (k0_pay2 v0 v1 v3) (k0_pay2 v0 v1 v3) v7 v9) v22 v24 := rfl

/-- The last two layers, over the encoder block and the second layer's result. -/
theorem pay1_eq (v6 v36 : FVec Ideal S512x1024 .f32) (v37 v39 v52 v54 : Vec Ideal S1x1024 .f32) :
    k0_pay1 (F := Ideal) v6 v36 (k0_pay4 v37) v39 v52 v54 = klayer v6 (klayer v6 v36 v37 v39) v52 v54 := rfl

/-- The encoder block: the product into a zero accumulator plus the bias spread over the rows. -/
theorem pay2_eq (v0 : Vec Ideal S512x1024 .f32) (v1 : Vec Ideal S1024x1024 .f32) (v3 : Vec Ideal S1024 .f32) :
    k0_pay2 (F := Ideal) v0 v1 v3
      = addf (matmul (φ₁ := .f32) (φ₂ := .f32) dot_S512x1024_S1024x1024_S512x1024_1_0_0_1_n_n (some .fp32) v0 v1 (constant S512x1024 .f32 0x00000000#32))
          (broadcastTo S512x1024 (shapeCast S1x1024 v3 shapeCasts_S1024_S1x1024) broadcasts_S1x1024_S512x1024) := rfl

/-- The left operand is read at the output's row … -/
theorem lhs_row (i : S512x1024.Idx) (q : (dot_S512x1024_S1024x1024_S512x1024_1_0_0_1_n_n).contr.Idx) :
    ((dot_S512x1024_S1024x1024_S512x1024_1_0_0_1_n_n).lhsIdx i q 0).val = (i 0).val := by
  unfold DotDims.lhsIdx
  rw [dif_neg (show ¬(0 : Fin S512x1024.rank) ∈ (dot_S512x1024_S1024x1024_S512x1024_1_0_0_1_n_n).lhsBatch by decide),
    dif_pos (show (0 : Fin S512x1024.rank) ∈ (dot_S512x1024_S1024x1024_S512x1024_1_0_0_1_n_n).lhsNonContracting by decide)]
  rfl
/-- … and at the contraction position along its columns; -/
theorem lhs_contr (i : S512x1024.Idx) (q : (dot_S512x1024_S1024x1024_S512x1024_1_0_0_1_n_n).contr.Idx) :
    ((dot_S512x1024_S1024x1024_S512x1024_1_0_0_1_n_n).lhsIdx i q 1).val = (q ⟨0, by decide⟩).val :=
  (dot_S512x1024_S1024x1024_S512x1024_1_0_0_1_n_n).lhsIdx_val_of_single rfl i q
/-- the right operand at the contraction position along its rows … -/
theorem rhs_contr (i : S512x1024.Idx) (q : (dot_S512x1024_S1024x1024_S512x1024_1_0_0_1_n_n).contr.Idx) :
    ((dot_S512x1024_S1024x1024_S512x1024_1_0_0_1_n_n).rhsIdx i q 0).val = (q ⟨0, by decide⟩).val :=
  (dot_S512x1024_S1024x1024_S512x1024_1_0_0_1_n_n).rhsIdx_val_of_single rfl i q
/-- … and at the output's column. -/
theorem rhs_col (i : S512x1024.Idx) (q : (dot_S512x1024_S1024x1024_S512x1024_1_0_0_1_n_n).contr.Idx) :
    ((dot_S512x1024_S1024x1024_S512x1024_1_0_0_1_n_n).rhsIdx i q 1).val = (i 1).val := by
  unfold DotDims.rhsIdx
  rw [dif_neg (show ¬(1 : Fin S1024x1024.rank) ∈ (dot_S512x1024_S1024x1024_S512x1024_1_0_0_1_n_n).rhsBatch by decide),
    dif_pos (show (1 : Fin S1024x1024.rank) ∈ (dot_S512x1024_S1024x1024_S512x1024_1_0_0_1_n_n).rhsNonContracting by decide)]
  rfl

/-- Row `p` of the encoder block is the specification's encoder row of the block's operands. -/
theorem enc_row (v0 : Vec Ideal S512x1024 .f32) (v1 : Vec Ideal S1024x1024 .f32) (v3 : Vec Ideal S1024 .f32) (p : Fin 512) :
    rowOf (k0_pay2 (F := Ideal) v0 v1 v3) p = encRow v0 v1 v3 p := by
  funext c
  rw [pay2_eq]
  unfold rowOf encRow
  rw [addf_apply, broadcastTo_1b_ab_apply, shapeCast_a_1a_apply]
  refine congrArg (· + v3 (ix1 c)) ?_
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : (dot_S512x1024_S1024x1024_S512x1024_1_0_0_1_n_n).lhsIdx (ix2 p c)
      ((contrEquiv1 dot_S512x1024_S1024x1024_S512x1024_1_0_0_1_n_n 1024 rfl rfl).symm k) = ix2 p k :=
    funext fun a => Fin.ext (by
      match a with
      | ⟨0, _⟩ => exact lhs_row _ _
      | ⟨1, _⟩ => exact (lhs_contr _ _).trans hk)
  have er : (dot_S512x1024_S1024x1024_S512x1024_1_0_0_1_n_n).rhsIdx (ix2 p c)
      ((contrEquiv1 dot_S512x1024_S1024x1024_S512x1024_1_0_0_1_n_n 1024 rfl rfl).symm k) = ix2 k c :=
    funext fun a => Fin.ext (by
      match a with
      | ⟨0, _⟩ => exact (rhs_contr _ _).trans hk
      | ⟨1, _⟩ => exact rhs_col _ _)
  rw [el, er]

/-- The one-row load at row `o` of a `[4, 1024]` array is that row. -/
theorem ld_row (x : Vec Ideal S4x1024 .f32) (o : ℕ) (ho : o < 4)
    (inb : ∀ a, (![o, 0] : Fin 2 → Nat) a + S1x1024.size a ≤ S4x1024.size a) :
    rowOf (View.ld x (Rect.unit (s := S4x1024) ![o, 0] S1x1024.size inb)) 0 = rowOf x (⟨o, ho⟩ : Fin 4) := by
  funext j
  unfold rowOf
  show x _ = x _
  refine congrArg x (funext fun a => Fin.ext ?_)
  match a with
  | ⟨0, _⟩ => show o + 1 * 0 = o; omega
  | ⟨1, _⟩ => show 0 + 1 * j.val = j.val; omega

/-- The zero offsets of a whole two-axis block, however they are spelt. -/
theorem zero_offsets2 : (![0, 0] : Fin 2 → Nat) = fun _ => 0 := funext fun a => by fin_cases a <;> rfl
/-- The zero offset of a whole one-axis block. -/
theorem zero_offsets1 : (![0] : Fin 1 → Nat) = fun _ => 0 := funext fun a => by fin_cases a; rfl

/-- THE BLOCK: what the body stores, at local row `p` and column `c`, is the network on the encoder row of row `p` of
    the `x` block, layer `l` using rows `l` of the weight and bias blocks. -/
theorem out_block (x0 : Vec Ideal S512x1024 .f32) (x1 : Vec Ideal S1024x1024 .f32) (x2 : Vec Ideal S1024 .f32)
    (x3 x4 : Vec Ideal S4x1024 .f32) (p : Fin 512) (c : Fin 1024) :
    out0_5 (F := Ideal) x0 x1 x2 x3 x4 (ix2 p c)
      = net (encRow x0 x1 x2 p) (fun l => rowOf x3 l) (fun l => rowOf x4 l) c := by
  unfold out0_5
  rw [View.canon_unit_zero zero_offsets2]
  simp only [View.ld_unit_zero (S := S512x1024) zero_offsets2, View.ld_unit_zero (S := S1024x1024) zero_offsets2, View.ld_unit_zero (S := S1024) zero_offsets1]
  rw [pay1_eq, pay3_eq]
  show rowOf (klayer _ _ _ _) p c = _
  simp only [klayer_row, enc_row, ld_row x3 0 (by decide), ld_row x3 1 (by decide), ld_row x3 2 (by decide), ld_row x3 3 (by decide),
    ld_row x4 0 (by decide), ld_row x4 1 (by decide), ld_row x4 2 (by decide), ld_row x4 3 (by decide)]
  rfl

end Cert.KernelIdeal.Cross

end
-- ==== Proof.KernelArray.lean ====
/-
  From the blocks to the array.

  The grid has two points; point `t` reads rows `512 t … 512 t + 511` of `x`, all of `W` and `b`, and all of the two
  `[4, 1024]` arrays the host made from the `[4, 1024, 1]` stacks by dropping their unit axis; it writes rows
  `512 t … 512 t + 511` of the result. Each output row depends on its own row of `x` only, so the block a point writes
  is the same rows of the specification's whole-array result, and the two blocks cover the array.
-/
import proofs.«165643_j17514876633094_2_alg».proof.Proof.Gen.KernelIdeal.Value
import proofs.«165643_j17514876633094_2_alg».proof.Proof.KernelBlock
import Idealize.ShloMosaic.Lib.Pipeline.Value
import Idealize.ShloMosaic.Lib.StableHlo.Run
import Idealize.ShloMosaic.Lib.Tactic

noncomputable section

open scoped BigOperators

namespace Cert.KernelIdeal.Cross

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.CrossNet

variable (m : (ℓ : Loc nD τ sig) → Buf (Elt Ideal) ℓ) (ρ : Dev nD → PrngReg)

/-- The arguments as launched, as plain arrays of extended reals. -/
abbrev aX (c : Dev nD) : S1024x1024.Idx → EReal := m ((c : Thread nD τ).loc main_arg0)
abbrev aW (c : Dev nD) : S1024x1024.Idx → EReal := m ((c : Thread nD τ).loc main_arg1)
abbrev aB (c : Dev nD) : S1024.Idx → EReal := m ((c : Thread nD τ).loc main_arg2)
abbrev aWs (c : Dev nD) : S4x1024x1.Idx → EReal := m ((c : Thread nD τ).loc main_arg3)
abbrev aBs (c : Dev nD) : S4x1024x1.Idx → EReal := m ((c : Thread nD τ).loc main_arg4)

/-- The whole result array of the specification, of the arguments as launched. -/
abbrev spec (c : Dev nD) : S1024x1024.Idx → EReal := result (aX m c) (aW m c) (aB m c) (aWs m c) (aBs m c)

/-- Dropping the trailing unit axis of a `[4, 1024, 1]` stack: entry `(l, j)` is the stack's `(l, j, 0)`. -/
theorem squeeze_apply (S : S4x1024x1.Idx → EReal) (l : Fin 4) (j : Fin 1024) :
    shapeCast S4x1024 S shapeCasts_S4x1024x1_S4x1024 (ix2 l j) = S (ix3 l j (0 : Fin 1)) :=
  shapeCast_apply S shapeCasts_S4x1024x1_S4x1024 _ _ (by
    rw [Shape.rowMajor_val_three, Shape.rowMajor_val_two]
    show (l.val * 1024 + j.val) * 1 + 0 = l.val * 1024 + j.val
    omega)

/-- The layer weights as the region finds them: the host's reshape of the weight stack. -/
theorem V_weights (c : Dev nD) :
    (V m c main_v0 : S4x1024.Idx → EReal) = shapeCast S4x1024 (aWs m c) shapeCasts_S4x1024x1_S4x1024 := by
  dsimp only [Gen.V, Gen.hostOps0]; after_results; rfl

/-- The layer biases as the region finds them: the host's reshape of the bias stack. -/
theorem V_biases (c : Dev nD) :
    (V m c main_v1 : S4x1024.Idx → EReal) = shapeCast S4x1024 (aBs m c) shapeCasts_S4x1024x1_S4x1024 := by
  dsimp only [Gen.V, Gen.hostOps0]; after_results; rfl

/-- The printed index maps over the two grid points: the `x` window moves with the output along the rows, every other
    input window stays at block `0`, and the output's row block is the point's number. -/
theorem block_indices : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) = t.val :=
  (by decide +kernel : ∀ t : Fin grid0.N, _)

/-- THE BLOCK AS ROWS OF THE WHOLE RESULT, over variables: if the `x` block's row `y 0` is row `i 0` of `X`, the other
    operands are the whole arrays (the two `[4, 1024]` ones the stacks without their unit axis), and the columns agree,
    then what the body stores at `y` is the specification's result at `i`. -/
theorem block_eq (X Wm : S1024x1024.Idx → EReal) (b : S1024.Idx → EReal) (ws bs : S4x1024x1.Idx → EReal)
    (x0 : Vec Ideal S512x1024 .f32) (x1 : Vec Ideal S1024x1024 .f32) (x2 : Vec Ideal S1024 .f32)
    (x3 x4 : Vec Ideal S4x1024 .f32) (y : S512x1024.Idx) (i : S1024x1024.Idx) (hc : i 1 = y 1)
    (h0 : ∀ k : Fin 1024, x0 (ix2 (y 0) k) = X (ix2 (i 0) k)) (h1 : x1 = Wm) (h2 : x2 = b)
    (h3 : ∀ (l : Fin 4) (j : Fin 1024), x3 (ix2 l j) = ws (ix3 l j (0 : Fin 1)))
    (h4 : ∀ (l : Fin 4) (j : Fin 1024), x4 (ix2 l j) = bs (ix3 l j (0 : Fin 1))) :
    out0_5 (F := Ideal) x0 x1 x2 x3 x4 y = result X Wm b ws bs i := by
  obtain ⟨p, q, rfl⟩ : ∃ (p : Fin 512) (q : Fin 1024), y = ix2 p q := ⟨y 0, y 1, eq_ix2 y⟩
  obtain ⟨r, q', rfl⟩ : ∃ (r : Fin 1024) (q' : Fin 1024), i = ix2 r q' := ⟨i 0, i 1, eq_ix2 i⟩
  obtain rfl : q' = q := hc
  rw [out_block, result_apply]
  subst h1 h2
  have e0 : encRow x0 x1 x2 p = encRow X x1 x2 r := funext fun c => by
    unfold encRow
    exact congrArg (· + x2 (ix1 c)) (Finset.sum_congr rfl fun k _ => by rw [h0 k])
  have e3 : (fun l => rowOf x3 l) = stackRow ws := funext fun l => funext fun j => h3 l j
  have e4 : (fun l => rowOf x4 l) = stackRow bs := funext fun l => funext fun j => h4 l j
  rw [e0, e3, e4]

/-- WHAT POINT `t` WRITES BACK is block `t` of the specification's result. -/
theorem written_block (c : Dev nD) (t : Fin cfg0.N) :
    (dats m 0 c).flushed 5 t = ((cfg0.win 5).blk t).view.read (Elt Ideal) (spec m c) := by
  rw [Value.flushed5]
  obtain ⟨e00, e01, e10, e11, e2, e30, e31, e40, e41, e51, e50⟩ := block_indices t
  funext y
  show out0_5 (F := Ideal) (iblk m c 0 t) (iblk m c 1 t) (iblk m c 2 t) (iblk m c 3 t) (iblk m c 4 t) y
    = spec m c (((cfg0.win 5).blk t).view.emb y)
  refine block_eq (aX m c) (aW m c) (aB m c) (aWs m c) (aBs m c) _ _ _ _ _ y _ ?_ ?_ ?_ ?_ ?_ ?_
  · apply Fin.ext
    show win0_5.index t (1 : Fin 2) * 1024 + 1 * (y 1).val = (y 1).val
    omega
  · intro k
    show V m c main_arg0 (((cfg0.win 0).blk t).view.emb (ix2 (y 0) k)) = aX m c _
    rw [V_main_arg0]
    refine congrArg (aX m c) (funext fun a => Fin.ext ?_)
    match a with
    | ⟨0, _⟩ => show win0_0.index t (0 : Fin 2) * 512 + 1 * (y 0).val = win0_5.index t (0 : Fin 2) * 512 + 1 * (y 0).val; omega
    | ⟨1, _⟩ => show win0_0.index t (1 : Fin 2) * 1024 + 1 * k.val = k.val; omega
  · funext z
    show V m c main_arg1 (((cfg0.win 1).blk t).view.emb z) = aW m c z
    rw [V_main_arg1]
    refine congrArg (aW m c) (funext fun a => Fin.ext ?_)
    match a with
    | ⟨0, _⟩ => show win0_1.index t (0 : Fin 2) * 1024 + 1 * (z 0).val = (z 0).val; omega
    | ⟨1, _⟩ => show win0_1.index t (1 : Fin 2) * 1024 + 1 * (z 1).val = (z 1).val; omega
  · funext z
    show V m c main_arg2 (((cfg0.win 2).blk t).view.emb z) = aB m c z
    rw [V_main_arg2]
    refine congrArg (aB m c) (funext fun a => Fin.ext ?_)
    match a with
    | ⟨0, _⟩ => show win0_2.index t (0 : Fin 1) * 1024 + 1 * (z 0).val = (z 0).val; omega
  · intro l j
    show V m c main_v0 (((cfg0.win 3).blk t).view.emb (ix2 l j)) = aWs m c _
    rw [V_weights]
    refine Eq.trans (congrArg (shapeCast S4x1024 (aWs m c) shapeCasts_S4x1024x1_S4x1024) (funext fun a => Fin.ext ?_))
      (squeeze_apply (aWs m c) l j)
    match a with
    | ⟨0, _⟩ => show win0_3.index t (0 : Fin 2) * 4 + 1 * l.val = l.val; omega
    | ⟨1, _⟩ => show win0_3.index t (1 : Fin 2) * 1024 + 1 * j.val = j.val; omega
  · intro l j
    show V m c main_v1 (((cfg0.win 4).blk t).view.emb (ix2 l j)) = aBs m c _
    rw [V_biases]
    refine Eq.trans (congrArg (shapeCast S4x1024 (aBs m c) shapeCasts_S4x1024x1_S4x1024) (funext fun a => Fin.ext ?_))
      (squeeze_apply (aBs m c) l j)
    match a with
    | ⟨0, _⟩ => show win0_4.index t (0 : Fin 2) * 4 + 1 * l.val = l.val; omega
    | ⟨1, _⟩ => show win0_4.index t (1 : Fin 2) * 1024 + 1 * j.val = j.val; omega

/-- An index of the result array is in point `t`'s block iff each coordinate is in the block's range on its axis. -/
theorem mem_row_block (t : Fin cfg0.N) (i : S1024x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v2).slice (win0_5.rect t)).set ↔ _
  rw [View.set_slice_whole, Rect.mem_set_unit]
  exact Iff.rfl

/-- Row `r` of the result is written by point `r / 512`: the two blocks cover the array. -/
theorem rows_covered (i : S1024x1024.Idx) :
    ∃ t : Fin cfg0.N, (cfg0.win 5).flush t = true ∧ i ∈ ((cfg0.win 5).blk t).view.set := by
  have hi0 : (i 0).val < 1024 := (i 0).isLt
  have hi1 : (i 1).val < 1024 := (i 1).isLt
  have hN : cfg0.N = 2 := N_0
  let t : Fin cfg0.N := ⟨(i 0).val / 512, by rw [hN]; omega⟩
  obtain ⟨e00, e01, e10, e11, e2, e30, e31, e40, e41, e51, e50⟩ := block_indices t
  have ht : t.val = (i 0).val / 512 := rfl
  refine ⟨t, flush0_5 t, ?_⟩
  rw [mem_row_block]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- THE ARRAY after the run is the specification's result of the arguments as launched. -/
theorem result_array (c : Dev nD) : (dats m 0 c).arrAt 5 cfg0.N = spec m c :=
  (dats m 0 c).arrAt_eq_of_cover 5 (spec m c) (fun t _ => written_block m c t) rows_covered

/-- The kernel's run, read: the result array at the specification's result, the arguments unchanged. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩)
    (Cert.KernelIdeal.Value.run_blocks m ρ)

end Cert.KernelIdeal.Cross

end
-- ==== Proof.RefRows.lean ====
/-
  The reference, row by row.

  The reference computes the encoder `x · W + b` once and then four times a layer: the product of the current array
  with the layer's weight column (a contraction over the columns, one number per row), spread back over the columns,
  times the encoder, plus the layer's bias spread over the rows, plus the current array. Read at row `p` each of these
  is the specification's one-row layer; so the result's row `p` is the network applied to encoder row `p`.
-/
import proofs.«165643_j17514876633094_2_alg».proof.Proof.Gen.ReferenceIdeal.Read
import proofs.«165643_j17514876633094_2_alg».proof.Proof.CrossSpec
import Idealize.ShloMosaic.Lib.ValueIdx

noncomputable section

open scoped BigOperators

namespace Cert.ReferenceIdeal.Cross

open Cert.ReferenceIdeal Cert.ReferenceIdeal.Gen Cert.ReferenceIdeal.Read Idealize.ShloMosaic Idealize.ShloMosaic.TcCoe
open Idealize.ShloMosaic.ValueIdx Idealize.ShloMosaic.CrossNet

/-- The encoder's row `p`: the contraction of row `p` of `x` with the columns of `W`, plus `b`. -/
theorem enc_row (x0 x1 : (⟨S1024x1024, .f32⟩ : BufTy).Contents (Elt Ideal)) (x2 : (⟨S1024, .f32⟩ : BufTy).Contents (Elt Ideal)) (p : Fin 1024) :
    rowOf (val_main_v3 (F := Ideal) x0 x1 x2) p = encRow x0 x1 x2 p := by
  funext c
  unfold rowOf encRow
  rw [val_main_v3_apply, val_main_v0_apply, val_main_v2_apply, val_main_v1_apply]
  have eb : idx_main_v1 (idx_main_v2 (ix2 p c)) = ix1 c := funext fun a => Fin.ext (by
    match a with
    | ⟨0, _⟩ => rfl)
  rw [eb]
  refine congrArg (· + x2 (ix1 c)) (Finset.sum_congr rfl fun k _ => ?_)
  have el : lidx_main_v0 (ix2 p c) k = ix2 p k := funext fun a => Fin.ext (by
    match a with
    | ⟨0, _⟩ => rfl
    | ⟨1, _⟩ => rfl)
  have er : ridx_main_v0 (ix2 p c) k = ix2 k c := funext fun a => Fin.ext (by
    match a with
    | ⟨0, _⟩ => rfl
    | ⟨1, _⟩ => rfl)
  rw [el, er]

/-- The first layer's result, row by row: the one-row layer on the encoder row and the row before it, with the
    vectors of layer 0 out of the two stacks. -/
theorem layer0_row (x0 x1 : (⟨S1024x1024, .f32⟩ : BufTy).Contents (Elt Ideal)) (x2 : (⟨S1024, .f32⟩ : BufTy).Contents (Elt Ideal)) (x3 x4 : (⟨S4x1024x1, .f32⟩ : BufTy).Contents (Elt Ideal)) (p : Fin 1024) :
    rowOf (val_main_v15 (F := Ideal) x0 x1 x2 x3 x4) p
      = layer (rowOf (val_main_v3 (F := Ideal) x0 x1 x2) p) (rowOf (val_main_v3 (F := Ideal) x0 x1 x2) p) (stackRow x3 0) (stackRow x4 0) := by
  funext c
  unfold rowOf layer stackRow
  rw [val_main_v15_apply, val_main_v14_apply, val_main_v8_apply, val_main_v7_apply, val_main_v6_apply,
    val_main_v13_apply, val_main_v12_apply, val_main_v11_apply, val_main_v10_apply, val_main_v9_apply]
  have eβ : idx_main_v9 (idx_main_v10 (idx_main_v11 (idx_main_v12 (idx_main_v13 (ix2 p c)))))
      = ix3 (0 : Fin 4) c (0 : Fin 1) := funext fun a => Fin.ext (by
    match a with
    | ⟨0, _⟩ => rfl
    | ⟨1, _⟩ => show (c.val / 1 * 1 + 0) / 1 % 1024 = c.val; have := c.isLt; omega
    | ⟨2, _⟩ => rfl)
  rw [eβ]
  refine congrArg (fun s => val_main_v3 (F := Ideal) x0 x1 x2 (ix2 p c) * s + x4 (ix3 (0 : Fin 4) c (0 : Fin 1))
    + (val_main_v3 (F := Ideal) x0 x1 x2) (ix2 p c)) (Finset.sum_congr rfl fun k _ => ?_)
  rw [val_main_v5_apply, val_main_v4_apply]
  have el : lidx_main_v6 (idx_main_v7 (ix2 p c)) k = ix2 p k := funext fun a => Fin.ext (by
    match a with
    | ⟨0, _⟩ => rfl
    | ⟨1, _⟩ => rfl)
  have ew : idx_main_v4 (idx_main_v5 (ridx_main_v6 (idx_main_v7 (ix2 p c)) k))
      = ix3 (0 : Fin 4) k (0 : Fin 1) := funext fun a => Fin.ext (by
    match a with
    | ⟨0, _⟩ => rfl
    | ⟨1, _⟩ => show (k.val * 1 + 0) / 1 % 1024 = k.val; have := k.isLt; omega
    | ⟨2, _⟩ => rfl)
  rw [el, ew]

/-- The second layer's result, row by row: the one-row layer on the encoder row and the row before it, with the
    vectors of layer 1 out of the two stacks. -/
theorem layer1_row (x0 x1 : (⟨S1024x1024, .f32⟩ : BufTy).Contents (Elt Ideal)) (x2 : (⟨S1024, .f32⟩ : BufTy).Contents (Elt Ideal)) (x3 x4 : (⟨S4x1024x1, .f32⟩ : BufTy).Contents (Elt Ideal)) (p : Fin 1024) :
    rowOf (val_main_v27 (F := Ideal) x0 x1 x2 x3 x4) p
      = layer (rowOf (val_main_v3 (F := Ideal) x0 x1 x2) p) (rowOf (val_main_v15 (F := Ideal) x0 x1 x2 x3 x4) p) (stackRow x3 1) (stackRow x4 1) := by
  funext c
  unfold rowOf layer stackRow
  rw [val_main_v27_apply, val_main_v26_apply, val_main_v20_apply, val_main_v19_apply, val_main_v18_apply,
    val_main_v25_apply, val_main_v24_apply, val_main_v23_apply, val_main_v22_apply, val_main_v21_apply]
  have eβ : idx_main_v21 (idx_main_v22 (idx_main_v23 (idx_main_v24 (idx_main_v25 (ix2 p c)))))
      = ix3 (1 : Fin 4) c (0 : Fin 1) := funext fun a => Fin.ext (by
    match a with
    | ⟨0, _⟩ => rfl
    | ⟨1, _⟩ => show (c.val / 1 * 1 + 0) / 1 % 1024 = c.val; have := c.isLt; omega
    | ⟨2, _⟩ => rfl)
  rw [eβ]
  refine congrArg (fun s => val_main_v3 (F := Ideal) x0 x1 x2 (ix2 p c) * s + x4 (ix3 (1 : Fin 4) c (0 : Fin 1))
    + (val_main_v15 (F := Ideal) x0 x1 x2 x3 x4) (ix2 p c)) (Finset.sum_congr rfl fun k _ => ?_)
  rw [val_main_v17_apply, val_main_v16_apply]
  have el : lidx_main_v18 (idx_main_v19 (ix2 p c)) k = ix2 p k := funext fun a => Fin.ext (by
    match a with
    | ⟨0, _⟩ => rfl
    | ⟨1, _⟩ => rfl)
  have ew : idx_main_v16 (idx_main_v17 (ridx_main_v18 (idx_main_v19 (ix2 p c)) k))
      = ix3 (1 : Fin 4) k (0 : Fin 1) := funext fun a => Fin.ext (by
    match a with
    | ⟨0, _⟩ => rfl
    | ⟨1, _⟩ => show (k.val * 1 + 0) / 1 % 1024 = k.val; have := k.isLt; omega
    | ⟨2, _⟩ => rfl)
  rw [el, ew]

/-- The third layer's result, row by row: the one-row layer on the encoder row and the row before it, with the
    vectors of layer 2 out of the two stacks. -/
theorem layer2_row (x0 x1 : (⟨S1024x1024, .f32⟩ : BufTy).Contents (Elt Ideal)) (x2 : (⟨S1024, .f32⟩ : BufTy).Contents (Elt Ideal)) (x3 x4 : (⟨S4x1024x1, .f32⟩ : BufTy).Contents (Elt Ideal)) (p : Fin 1024) :
    rowOf (val_main_v39 (F := Ideal) x0 x1 x2 x3 x4) p
      = layer (rowOf (val_main_v3 (F := Ideal) x0 x1 x2) p) (rowOf (val_main_v27 (F := Ideal) x0 x1 x2 x3 x4) p) (stackRow x3 2) (stackRow x4 2) := by
  funext c
  unfold rowOf layer stackRow
  rw [val_main_v39_apply, val_main_v38_apply, val_main_v32_apply, val_main_v31_apply, val_main_v30_apply,
    val_main_v37_apply, val_main_v36_apply, val_main_v35_apply, val_main_v34_apply, val_main_v33_apply]
  have eβ : idx_main_v33 (idx_main_v34 (idx_main_v35 (idx_main_v36 (idx_main_v37 (ix2 p c)))))
      = ix3 (2 : Fin 4) c (0 : Fin 1) := funext fun a => Fin.ext (by
    match a with
    | ⟨0, _⟩ => rfl
    | ⟨1, _⟩ => show (c.val / 1 * 1 + 0) / 1 % 1024 = c.val; have := c.isLt; omega
    | ⟨2, _⟩ => rfl)
  rw [eβ]
  refine congrArg (fun s => val_main_v3 (F := Ideal) x0 x1 x2 (ix2 p c) * s + x4 (ix3 (2 : Fin 4) c (0 : Fin 1))
    + (val_main_v27 (F := Ideal) x0 x1 x2 x3 x4) (ix2 p c)) (Finset.sum_congr rfl fun k _ => ?_)
  rw [val_main_v29_apply, val_main_v28_apply]
  have el : lidx_main_v30 (idx_main_v31 (ix2 p c)) k = ix2 p k := funext fun a => Fin.ext (by
    match a with
    | ⟨0, _⟩ => rfl
    | ⟨1, _⟩ => rfl)
  have ew : idx_main_v28 (idx_main_v29 (ridx_main_v30 (idx_main_v31 (ix2 p c)) k))
      = ix3 (2 : Fin 4) k (0 : Fin 1) := funext fun a => Fin.ext (by
    match a with
    | ⟨0, _⟩ => rfl
    | ⟨1, _⟩ => show (k.val * 1 + 0) / 1 % 1024 = k.val; have := k.isLt; omega
    | ⟨2, _⟩ => rfl)
  rw [el, ew]

/-- The fourth layer's result, row by row: the one-row layer on the encoder row and the row before it, with the
    vectors of layer 3 out of the two stacks. -/
theorem layer3_row (x0 x1 : (⟨S1024x1024, .f32⟩ : BufTy).Contents (Elt Ideal)) (x2 : (⟨S1024, .f32⟩ : BufTy).Contents (Elt Ideal)) (x3 x4 : (⟨S4x1024x1, .f32⟩ : BufTy).Contents (Elt Ideal)) (p : Fin 1024) :
    rowOf (val_main_v51 (F := Ideal) x0 x1 x2 x3 x4) p
      = layer (rowOf (val_main_v3 (F := Ideal) x0 x1 x2) p) (rowOf (val_main_v39 (F := Ideal) x0 x1 x2 x3 x4) p) (stackRow x3 3) (stackRow x4 3) := by
  funext c
  unfold rowOf layer stackRow
  rw [val_main_v51_apply, val_main_v50_apply, val_main_v44_apply, val_main_v43_apply, val_main_v42_apply,
    val_main_v49_apply, val_main_v48_apply, val_main_v47_apply, val_main_v46_apply, val_main_v45_apply]
  have eβ : idx_main_v45 (idx_main_v46 (idx_main_v47 (idx_main_v48 (idx_main_v49 (ix2 p c)))))
      = ix3 (3 : Fin 4) c (0 : Fin 1) := funext fun a => Fin.ext (by
    match a with
    | ⟨0, _⟩ => rfl
    | ⟨1, _⟩ => show (c.val / 1 * 1 + 0) / 1 % 1024 = c.val; have := c.isLt; omega
    | ⟨2, _⟩ => rfl)
  rw [eβ]
  refine congrArg (fun s => val_main_v3 (F := Ideal) x0 x1 x2 (ix2 p c) * s + x4 (ix3 (3 : Fin 4) c (0 : Fin 1))
    + (val_main_v39 (F := Ideal) x0 x1 x2 x3 x4) (ix2 p c)) (Finset.sum_congr rfl fun k _ => ?_)
  rw [val_main_v41_apply, val_main_v40_apply]
  have el : lidx_main_v42 (idx_main_v43 (ix2 p c)) k = ix2 p k := funext fun a => Fin.ext (by
    match a with
    | ⟨0, _⟩ => rfl
    | ⟨1, _⟩ => rfl)
  have ew : idx_main_v40 (idx_main_v41 (ridx_main_v42 (idx_main_v43 (ix2 p c)) k))
      = ix3 (3 : Fin 4) k (0 : Fin 1) := funext fun a => Fin.ext (by
    match a with
    | ⟨0, _⟩ => rfl
    | ⟨1, _⟩ => show (k.val * 1 + 0) / 1 % 1024 = k.val; have := k.isLt; omega
    | ⟨2, _⟩ => rfl)
  rw [el, ew]

/-- THE REFERENCE'S RESULT is the specification's, index by index. -/
theorem result_eq (x0 x1 : (⟨S1024x1024, .f32⟩ : BufTy).Contents (Elt Ideal)) (x2 : (⟨S1024, .f32⟩ : BufTy).Contents (Elt Ideal)) (x3 x4 : (⟨S4x1024x1, .f32⟩ : BufTy).Contents (Elt Ideal)) :
    val_main_v51 (F := Ideal) x0 x1 x2 x3 x4 = result x0 x1 x2 x3 x4 := by
  funext i
  obtain ⟨p, c, rfl⟩ : ∃ (p : Fin 1024) (c : Fin 1024), i = ix2 p c := ⟨i 0, i 1, eq_ix2 i⟩
  rw [result_apply]
  show rowOf (val_main_v51 (F := Ideal) x0 x1 x2 x3 x4) p c = _
  rw [layer3_row, layer2_row, layer1_row, layer0_row, enc_row]
  rfl

end Cert.ReferenceIdeal.Cross

end
-- ==== Proof.lean ====
/-
  A cross network after a dense encoder, tiled over row blocks, against its whole-array reference.

  Both programs compute, for every row `p` of `x`, the encoder row `h = x(p,·) · W + b` and then four times
  `xl ← (h · ⟨xl, w_l⟩ + β_l) + xl` from `xl = h`, where `w_l` and `β_l` are vector `l` of the two `[4, 1024, 1]`
  stacks. The kernel does it for 512 rows at a time: the encoder block is a matrix product into a zero accumulator,
  each inner product `⟨xl, w_l⟩` a product with the broadcast weight row summed along the last axis, and the stacks
  reach it as `[4, 1024]` arrays the host makes by dropping their unit axis. The reference does it for all 1024 rows at
  once, each inner product a contraction with the `[1024, 1]` weight column. Over the extended reals the two are the
  same sums of the same products in the same association, so the two values are equal term by term (CrossSpec.lean
  states the common value; KernelBlock.lean and KernelArray.lean read the kernel's run as it, RefRows.lean the
  reference's); no entry needs to be finite for that. Nothing was rewritten when the kernel was idealized, so its
  idealization is its own text read over the extended reals.
-/
import proofs.«165643_j17514876633094_2_alg».proof.Defs
import proofs.«165643_j17514876633094_2_alg».proof.Proof.Gen.Kernel
import proofs.«165643_j17514876633094_2_alg».proof.Proof.Gen.Kernel.Skeleton
import proofs.«165643_j17514876633094_2_alg».proof.Proof.Gen.Kernel.Launch
import proofs.«165643_j17514876633094_2_alg».proof.Proof.Gen.Kernel.Points
import proofs.«165643_j17514876633094_2_alg».proof.Proof.Gen.Kernel.Frame
import proofs.«165643_j17514876633094_2_alg».proof.Proof.Gen.KernelIdeal
import proofs.«165643_j17514876633094_2_alg».proof.Proof.Gen.KernelIdeal.Skeleton
import proofs.«165643_j17514876633094_2_alg».proof.Proof.Gen.KernelIdeal.Launch
import proofs.«165643_j17514876633094_2_alg».proof.Proof.Gen.KernelIdeal.Points
import proofs.«165643_j17514876633094_2_alg».proof.Proof.Gen.KernelIdeal.Frame
import proofs.«165643_j17514876633094_2_alg».proof.Proof.Gen.ReferenceIdeal
import proofs.«165643_j17514876633094_2_alg».proof.Proof.Gen.Pre_finite_inputs
import proofs.«165643_j17514876633094_2_alg».proof.Proof.Gen.KernelIdeal.Value
import proofs.«165643_j17514876633094_2_alg».proof.Proof.Gen.ReferenceIdeal.Run
import proofs.«165643_j17514876633094_2_alg».proof.Proof.Gen.ReferenceIdeal.Read
import proofs.«165643_j17514876633094_2_alg».proof.Proof.KernelArray
import proofs.«165643_j17514876633094_2_alg».proof.Proof.RefRows
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Both runs end with the result array at the specification's value of the arguments, which agree. -/
theorem algebraic : Cert.algebraic_KernelIdeal_ReferenceIdeal := by
  intro m ρ m' ρ' _ hagree
  refine ⟨fun c => Cert.KernelIdeal.Cross.spec m c, Cert.KernelIdeal.Cross.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.Cross.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
